-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x2048 : Shape := ⟨2, ![4, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x2048 : Shape := ⟨2, ![4, 2048]⟩
abbrev S64x2048x64 : Shape := ⟨3, ![64, 2048, 64]⟩
abbrev S_ : Shape := ⟨0, ![]⟩
abbrev S4x2048x1 : Shape := ⟨3, ![4, 2048, 1]⟩
abbrev S1x512x64 : Shape := ⟨3, ![1, 512, 64]⟩
abbrev S1x2048x64 : Shape := ⟨3, ![1, 2048, 64]⟩
abbrev S1x512x1 : Shape := ⟨3, ![1, 512, 1]⟩
abbrev S512x64 : Shape := ⟨2, ![512, 64]⟩
abbrev S2048x64 : Shape := ⟨2, ![2048, 64]⟩
abbrev S512x2048 : Shape := ⟨2, ![512, 2048]⟩
abbrev S512x1 : Shape := ⟨2, ![512, 1]⟩
abbrev S512 : Shape := ⟨1, ![512]⟩

abbrev nBuf : Space → Nat
  | .hbm => 17
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048, .i32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048x1, .f32⟩
  | .hbm, ⟨15, _⟩ => ⟨S64x2048x64, .f32⟩
  | .hbm, ⟨16, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x1, .f32⟩
  | .local _ .vmem, ⟨5, _⟩ => ⟨S1x512x1, .f32⟩
  | .local _ .vmem, ⟨6, _⟩ => ⟨S1x512x64, .f32⟩
  | .local _ .vmem, ⟨7, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x2048 : S512x1.Broadcasts S512x2048
  reduces_S512x2048_S512 : S512x2048.Reduces [1] S512
  shapeCasts_S512_S512x1 : S512.ShapeCasts S512x1
  broadcasts_S512x1_S512x64 : S512x1.Broadcasts S512x64
  shapeCasts_S512x64_S1x512x64 : S512x64.ShapeCasts S1x512x64
  shapeCasts_S64x2048x64_S4x16x2048x64 : S64x2048x64.ShapeCasts S4x16x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S4x2048x1.size a
  hwx0_3 : ∀ i : grid0.Coords, EltTy.bits .f32 = 32 ∨ (Rect.block (s := S4x2048x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x2048x64.size a
  hwx0_4 : ∀ i : grid0.Coords, EltTy.bits .f32 = 32 ∨ (Rect.block (s := S64x2048x64) S1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x2048 : Shape := ⟨2, ![4, 2048]⟩
abbrev S4x16x2048x2048 : Shape := ⟨4, ![4, 16, 2048, 2048]⟩
abbrev S_ : Shape := ⟨0, ![]⟩
abbrev S4x1x2048x1 : Shape := ⟨4, ![4, 1, 2048, 1]⟩
abbrev S4x16x2048 : Shape := ⟨3, ![4, 16, 2048]⟩
abbrev S4x16x2048x1 : Shape := ⟨4, ![4, 16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048, .i32⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x2048, .f32⟩
  | .hbm, ⟨10, _⟩ => ⟨S4x1x2048x1, .f32⟩
  | .hbm, ⟨11, _⟩ => ⟨S_, .f32⟩
  | .hbm, ⟨12, _⟩ => ⟨S4x1x2048x1, .f32⟩
  | .hbm, ⟨13, _⟩ => ⟨S4x1x2048x1, .f32⟩
  | .hbm, ⟨14, _⟩ => ⟨S_, .f32⟩
  | .hbm, ⟨15, _⟩ => ⟨S4x1x2048x1, .f32⟩
  | .hbm, ⟨16, _⟩ => ⟨S4x1x2048x1, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x2048_S4x1x2048x1_0_2 : S4x2048.BroadcastsInDim S4x1x2048x1 (![0, 2] : Fin 2 → Fin S4x1x2048x1.rank)
  bcast_S_S4x1x2048x1 : S_.BroadcastsInDim S4x1x2048x1 (![] : Fin 0 → Fin S4x1x2048x1.rank)
  bcast_S4x1x2048x1_S4x16x2048x2048_0_1_2_3 : S4x1x2048x1.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibSoftmaxAverage.lean ====
/-
  The softmax-weighted average of one row, in two spellings, on the extended reals; generic in the row width n.

  For scores  sc : Fin n → EReal  the row maximum is the fold of `max` from -∞ over the row, the weights are
  exp (sc j - rowMax),  and the weighted average of values  w : Fin n → EReal  is written either as the weighted
  sum divided by the total weight (`avgK`: a kernel that accumulates and divides once) or as the sum of the
  normalised weights times the values (`avgR`: softmax first, then the product).  On real scores and real values
  (`IsReal`, closed under +, -, *, finite sums) they are the same real number (`avgR_eq_avgK`, `avgK_isReal`):
  every weight is a positive real, so the total is a nonzero real and division by it is multiplication by its
  inverse, which distributes over the finite sum.  Also: the coercion of a finite real sum (`coe_sum`), the words
  of -1e9, 1, 1/32, 1024 and -∞ as extended reals, and division by √1024 as multiplication by 1/32.
-/
import Idealize.ShloMosaic.PureOps.Ideal.Laws
import Idealize.ShloMosaic.Lib.ValueIdx

noncomputable section

namespace Cert.Attn

open Idealize.ShloMosaic Idealize.ShloMosaic.ValueIdx

/-! ## Real numbers inside the extended reals -/

/-- The coercion of a finite sum of reals is the sum of the coercions. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- An extended real that is a real number. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (S : Finset ι) (f : ι → EReal) (hf : ∀ i, IsReal (f i)) : IsReal (∑ i ∈ S, f i) := by
  choose g hg using hf
  exact ⟨∑ i ∈ S, g i, by rw [coe_sum]; exact Finset.sum_congr rfl fun i _ => hg i⟩

/-! ## The constants -/

/-- The word of `-1e9` denotes that real number. -/
theorem ofBits_neg1e9 : Ideal.ofBits .f32 0xCE6E6B28#32 = ((-1000000000 : ℝ) : EReal) := by
  simp [Ideal.ofBits, Ideal.ieee, -EReal.coe_mul]; norm_num
/-- The word of `1.0`. -/
theorem ofBits_one : Ideal.ofBits .f32 0x3F800000#32 = ((1 : ℝ) : EReal) := by
  simp [Ideal.ofBits, Ideal.ieee, -EReal.coe_mul]; norm_num
/-- The word of `0.03125` denotes 1/32. -/
theorem ofBits_inv32 : Ideal.ofBits .f32 0x3D000000#32 = ((1 / 32 : ℝ) : EReal) := by
  simp [Ideal.ofBits, Ideal.ieee, -EReal.coe_mul]; norm_num
/-- The word of `1024.0`. -/
theorem ofBits_1024 : Ideal.ofBits .f32 0x44800000#32 = ((1024 : ℝ) : EReal) := by
  simp [Ideal.ofBits, Ideal.ieee, -EReal.coe_mul]; norm_num
/-- The word `0xFF800000` is -∞. -/
theorem ofBits_negInf : Ideal.ofBits .f32 0xFF800000#32 = ⊥ := by
  simp [Ideal.ofBits, Ideal.ieee]

/-- Dividing by the square root of 1024 is multiplying by 1/32, on every extended real: √1024 = 32. -/
theorem div_sqrt1024 (x : EReal) :
    Ideal.div x (Ideal.sqrt (Ideal.ofBits .f32 0x44800000#32)) = x * Ideal.ofBits .f32 0x3D000000#32 := by
  have h32 : Real.sqrt 1024 = 32 := by
    rw [show (1024 : ℝ) = 32 ^ 2 by norm_num]; exact Real.sqrt_sq (by norm_num)
  rw [ofBits_1024, ofBits_inv32, Ideal.sqrt_coe, if_neg (by norm_num), h32]
  exact Ideal.div_coe (by norm_num) x

/-! ## One query row -/

/-- The row maximum: the fold of `max` from -∞ over the keys. -/
def rowMax {n : ℕ} (sc : Fin n → EReal) : EReal := (Finset.univ : Finset (Fin n)).fold max ⊥ sc

/-- The weight of key `j`. -/
def wt {n : ℕ} (sc : Fin n → EReal) (j : Fin n) : EReal := Ideal.exp (sc j - rowMax sc)

/-- The weighted sum of the values divided by the total weight. -/
def avgK {n : ℕ} (sc w : Fin n → EReal) : EReal := Ideal.div (∑ j, wt sc j * w j) (∑ j, wt sc j)

/-- The sum of the normalised weights times the values. -/
def avgR {n : ℕ} (sc w : Fin n → EReal) : EReal := ∑ j, Ideal.div (wt sc j) (∑ j', wt sc j') * w j

/-- Over real scores the row maximum is one of the scores. -/
theorem rowMax_coe {n : ℕ} (hn : 0 < n) (s : Fin n → ℝ) : ∃ j0, rowMax (fun j => (s j : EReal)) = (s j0 : EReal) := by
  obtain ⟨j0, -, hj0⟩ := Finset.exists_mem_eq_sup (Finset.univ : Finset (Fin n)) ⟨⟨0, hn⟩, Finset.mem_univ _⟩
    (fun j => (s j : EReal))
  exact ⟨j0, hj0⟩

/-- On real scores and real values the two spellings of the weighted average agree. -/
theorem avgR_eq_avgK {n : ℕ} (hn : 0 < n) (sc w : Fin n → EReal) (hs : ∀ j, IsReal (sc j)) (hw : ∀ j, IsReal (w j)) :
    avgR sc w = avgK sc w := by
  choose s hs using hs
  choose u hu using hw
  obtain rfl : sc = fun j => (s j : EReal) := funext hs
  obtain rfl : w = fun j => (u j : EReal) := funext hu
  obtain ⟨j0, hM⟩ := rowMax_coe hn s
  have hwt : ∀ j, wt (fun j => (s j : EReal)) j = ((Real.exp (s j - s j0) : ℝ) : EReal) := fun j => by
    unfold wt; rw [hM, ← EReal.coe_sub, Ideal.exp_coe]
  have hl : (∑ j, Real.exp (s j - s j0)) ≠ 0 :=
    ne_of_gt (Finset.sum_pos (fun j _ => Real.exp_pos _) ⟨⟨0, hn⟩, Finset.mem_univ _⟩)
  unfold avgR avgK
  simp only [hwt]
  rw [← coe_sum, Ideal.div_coe hl]
  simp only [Ideal.div_coe hl, ← EReal.coe_mul]
  rw [← coe_sum, ← coe_sum, ← EReal.coe_mul, Finset.sum_mul]
  exact congrArg _ (Finset.sum_congr rfl fun j _ => by ring)

/-- A weighted average of real values over real scores is real. -/
theorem avgK_isReal {n : ℕ} (hn : 0 < n) (sc w : Fin n → EReal) (hs : ∀ j, IsReal (sc j)) (hw : ∀ j, IsReal (w j)) :
    IsReal (avgK sc w) := by
  choose s hs using hs
  choose u hu using hw
  obtain rfl : sc = fun j => (s j : EReal) := funext hs
  obtain rfl : w = fun j => (u j : EReal) := funext hu
  obtain ⟨j0, hM⟩ := rowMax_coe hn s
  have hwt : ∀ j, wt (fun j => (s j : EReal)) j = ((Real.exp (s j - s j0) : ℝ) : EReal) := fun j => by
    unfold wt; rw [hM, ← EReal.coe_sub, Ideal.exp_coe]
  have hl : (∑ j, Real.exp (s j - s j0)) ≠ 0 :=
    ne_of_gt (Finset.sum_pos (fun j _ => Real.exp_pos _) ⟨⟨0, hn⟩, Finset.mem_univ _⟩)
  unfold avgK
  simp only [hwt]
  rw [← coe_sum, Ideal.div_coe hl]
  simp only [← EReal.coe_mul]
  rw [← coe_sum, ← EReal.coe_mul]
  exact ⟨_, rfl⟩

end Cert.Attn

end
-- ==== Proof.Entry.lean ====
/-
  One entry of the attention output, over the argument arrays.

  The arguments are query, key and value arrays of shape [4, 16, 2048, 64] (batch, head, position, feature) and an
  integer mask of shape [4, 2048].  Query row `s` of batch `b` carries the bias  -1e9 * (1 - mask b s),  the same
  for every key; the score of key `j` is  (∑ e, q(b,h,s,e) * k(b,h,j,e)) * (1/32) + bias;  the output entry
  (b, h, s, d) is the softmax-weighted average over the keys of  v(b,h,j,d).

  The same function is also written over the arrays with batch and head regrouped into one axis of extent 64
  (row  r = b * 16 + h),  and the two are related by the row-major regrouping.
-/
import proofs.«118966_j52072183497345_2_alg».proof.Proof.LibSoftmaxAverage
import Idealize.ShloMosaic.Lib.Pipeline.Value

noncomputable section

namespace Cert.Attn

open Idealize.ShloMosaic Idealize.ShloMosaic.ValueIdx

abbrev A4 : Shape := ⟨4, ![4, 16, 2048, 64]⟩
abbrev A3 : Shape := ⟨3, ![64, 2048, 64]⟩
abbrev M2 : Shape := ⟨2, ![4, 2048]⟩
abbrev B3 : Shape := ⟨3, ![4, 2048, 1]⟩

/-- The bias of query row `s` of batch `b`. -/
def bias (mask : M2.Idx → BitVec 32) (b : Fin 4) (s : Fin 2048) : EReal :=
  Ideal.ofBits .f32 0xCE6E6B28#32 * (Ideal.ofBits .f32 0x3F800000#32 - FloatOps.sitofp (F := Ideal) .f32 (mask (ix2 b s)))

/-- The score of key `j` for query row `s` of batch `b`, head `h`. -/
def score (q k : A4.Idx → EReal) (mask : M2.Idx → BitVec 32) (b : Fin 4) (h : Fin 16) (s j : Fin 2048) : EReal :=
  (∑ e : Fin 64, q (ix4 b h s e) * k (ix4 b h j e)) * Ideal.ofBits .f32 0x3D000000#32 + bias mask b s

/-- The bias is a real number: a product and a difference of real constants and an integer. -/
theorem bias_isReal (mask : M2.Idx → BitVec 32) (b : Fin 4) (s : Fin 2048) : IsReal (bias mask b s) := by
  unfold bias
  rw [ofBits_neg1e9, ofBits_one]
  exact (IsReal.coe _).mul ((IsReal.coe _).sub ⟨_, rfl⟩)

/-- Over real queries and keys every score is a real number. -/
theorem score_isReal (q k : A4.Idx → EReal) (mask : M2.Idx → BitVec 32) (hq : ∀ i, IsReal (q i)) (hk : ∀ i, IsReal (k i))
    (b : Fin 4) (h : Fin 16) (s j : Fin 2048) : IsReal (score q k mask b h s j) := by
  unfold score
  rw [ofBits_inv32]
  exact ((IsReal.sum _ _ fun e => (hq _).mul (hk _)).mul (IsReal.coe _)).add (bias_isReal mask b s)

/-- The output entry (b, h, s, d). -/
def attnAt (q k v : A4.Idx → EReal) (mask : M2.Idx → BitVec 32) (b : Fin 4) (h : Fin 16) (s : Fin 2048) (d : Fin 64) : EReal :=
  avgK (fun j => score q k mask b h s j) (fun j => v (ix4 b h j d))

/-- The output array. -/
def attn (q k v : A4.Idx → EReal) (mask : M2.Idx → BitVec 32) : A4.Idx → EReal :=
  fun i => attnAt q k v mask (i 0) (i 1) (i 2) (i 3)

/-- The same over arrays whose batch and head axes are one axis: entry (r, s, d), the bias given as an array
    [4, 2048, 1] read at batch `r / 16`. -/
def attn3At (Q K V : A3.Idx → EReal) (B : B3.Idx → EReal) (r : Fin 64) (s : Fin 2048) (d : Fin 64) : EReal :=
  avgK (fun j => (∑ e : Fin 64, Q (ix3 r s e) * K (ix3 r j e)) * Ideal.ofBits .f32 0x3D000000#32
          + B (ix3 (⟨r.val / 16, by have := r.isLt; omega⟩ : Fin 4) s (0 : Fin 1)))
    (fun j => V (ix3 r j d))

def attn3 (Q K V : A3.Idx → EReal) (B : B3.Idx → EReal) : A3.Idx → EReal :=
  fun i => attn3At Q K V B (i 0) (i 1) (i 2)

/-- The array [4, 16, 2048, 64] regrouped as [64, 2048, 64] reads, at (r, s, d) with r = b * 16 + h, the entry (b, h, s, d). -/
theorem regroup43 {α : Type} (x : A4.Idx → α) (h43 : A4.ShapeCasts A3) (b : Fin 4) (h : Fin 16) (s : Fin 2048) (d : Fin 64)
    (r : Fin 64) (hr : r.val = b.val * 16 + h.val) : shapeCast A3 x h43 (ix3 r s d) = x (ix4 b h s d) :=
  shapeCast_apply x h43 _ _ (by
    rw [Shape.rowMajor_val_four, Shape.rowMajor_val_three]
    show ((b.val * 16 + h.val) * 2048 + s.val) * 64 + d.val = (r.val * 2048 + s.val) * 64 + d.val
    rw [hr])

/-- And the way back. -/
theorem regroup34 {α : Type} (x : A3.Idx → α) (h34 : A3.ShapeCasts A4) (b : Fin 4) (h : Fin 16) (s : Fin 2048) (d : Fin 64)
    (r : Fin 64) (hr : r.val = b.val * 16 + h.val) : shapeCast A4 x h34 (ix4 b h s d) = x (ix3 r s d) :=
  shapeCast_apply x h34 _ _ (by
    rw [Shape.rowMajor_val_four, Shape.rowMajor_val_three]
    show (r.val * 2048 + s.val) * 64 + d.val = ((b.val * 16 + h.val) * 2048 + s.val) * 64 + d.val
    rw [hr])

/-- The regrouped form, of the regrouped arguments and the bias array, regrouped back, is the output array. -/
theorem attn3_regroup (q k v : A4.Idx → EReal) (mask : M2.Idx → BitVec 32) (B : B3.Idx → EReal)
    (hB : ∀ b s, B (ix3 b s (0 : Fin 1)) = bias mask b s) (h43 : A4.ShapeCasts A3) (h34 : A3.ShapeCasts A4) :
    shapeCast A4 (attn3 (shapeCast A3 q h43) (shapeCast A3 k h43) (shapeCast A3 v h43) B) h34 = attn q k v mask := by
  funext i
  obtain ⟨b, h, s, d, rfl⟩ : ∃ (b : Fin 4) (h : Fin 16) (s : Fin 2048) (d : Fin 64), i = ix4 b h s d :=
    ⟨i 0, i 1, i 2, i 3, eq_ix4 i⟩
  have hrlt : b.val * 16 + h.val < 64 := by have := b.isLt; have := h.isLt; omega
  rw [regroup34 _ h34 b h s d ⟨b.val * 16 + h.val, hrlt⟩ rfl]
  show attn3At _ _ _ B ⟨b.val * 16 + h.val, hrlt⟩ s d = attnAt q k v mask b h s d
  unfold attn3At attnAt score
  have hb : (⟨(b.val * 16 + h.val) / 16, by omega⟩ : Fin 4) = b := Fin.ext (by
    show (b.val * 16 + h.val) / 16 = b.val
    have := h.isLt; omega)
  congr 1
  · funext j
    rw [hb, hB]
    congr 2
    refine Finset.sum_congr rfl fun e _ => ?_
    rw [regroup43 q h43 b h s e _ rfl, regroup43 k h43 b h j e _ rfl]
  · funext j
    rw [regroup43 v h43 b h j d _ rfl]

end Cert.Attn

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.Body.lean ====
/-
  What the kernel body stores, entry by entry, at the exact instance.

  The body reads a query block [1, 512, 64], the key and value blocks [1, 2048, 64] and a bias column [1, 512, 1],
  and stores a block [1, 512, 64].  Entry (r, d) of the stored block is the softmax-weighted average, over the
  2048 keys, of column d of the value block, the score of key j for row r being
  (∑ e, q(r,e) * k(j,e)) * (1/32) + bias(r):  the two matrix products are plain sums at the exact instance
  (rounding an operand to bf16 is the identity there), the row maximum is the fold of max from -∞ over a row's
  lanes, the row total the sum over them.
-/
import proofs.«118966_j52072183497345_2_alg».proof.Proof.Gen.KernelIdeal.Skeleton
import proofs.«118966_j52072183497345_2_alg».proof.Proof.Entry
import proofs.«118966_j52072183497345_2_alg».proof.Proof.LibLayout
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Attn Cert.LibLayout

/-! ## The two matrix products -/

theorem qk_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Query rows against key rows, both contracted over their features: entry (r, j) is the dot product of query
    row r and key row j. -/
theorem scores_apply (X : FVec Ideal S512x64 .bf16) (Y : FVec Ideal S2048x64 .bf16) (r : Fin 512) (j : Fin 2048) :
    matmul dot_S512x64_S2048x64_S512x2048_1_1_0_0_n_n none X Y (constant (F := Ideal) S512x2048 .f32 0x00000000#32) (ix2 r j)
      = ∑ e : Fin 64, X (ix2 r e) * Y (ix2 j e) := by
  simp only [matmul]
  rw [Ideal.matmul_constant_zero_apply,
    ← Equiv.sum_comp (contrEquiv1 dot_S512x64_S2048x64_S512x2048_1_1_0_0_n_n 64 rfl rfl).symm]
  refine Finset.sum_congr rfl fun e _ => ?_
  have hk := contrEquiv1_symm_val dot_S512x64_S2048x64_S512x2048_1_1_0_0_n_n 64 rfl rfl e
  have el : dot_S512x64_S2048x64_S512x2048_1_1_0_0_n_n.lhsIdx (ix2 r j)
      ((contrEquiv1 dot_S512x64_S2048x64_S512x2048_1_1_0_0_n_n 64 rfl rfl).symm e) = ix2 r e := funext fun a => Fin.ext (by
    match a with
    | ⟨0, _⟩ => exact qk_lhs0 _ _
    | ⟨1, _⟩ => exact (qk_lhs1 _ _).trans hk)
  have er : dot_S512x64_S2048x64_S512x2048_1_1_0_0_n_n.rhsIdx (ix2 r j)
      ((contrEquiv1 dot_S512x64_S2048x64_S512x2048_1_1_0_0_n_n 64 rfl rfl).symm e) = ix2 j e := funext fun a => Fin.ext (by
    match a with
    | ⟨0, _⟩ => exact qk_rhs0 _ _
    | ⟨1, _⟩ => exact (qk_rhs1 _ _).trans hk)
  rw [el, er]

theorem pv_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Weights against the value block: entry (r, d) sums, over the keys, weight (r, j) times value (j, d). -/
theorem weighted_apply (P : FVec Ideal S512x2048 .bf16) (Y : FVec Ideal S2048x64 .bf16) (r : Fin 512) (d : Fin 64) :
    matmul dot_S512x2048_S2048x64_S512x64_1_0_0_1_n_n none P Y (constant (F := Ideal) S512x64 .f32 0x00000000#32) (ix2 r d)
      = ∑ j : Fin 2048, P (ix2 r j) * Y (ix2 j d) := by
  simp only [matmul]
  rw [Ideal.matmul_constant_zero_apply,
    ← Equiv.sum_comp (contrEquiv1 dot_S512x2048_S2048x64_S512x64_1_0_0_1_n_n 2048 rfl rfl).symm]
  refine Finset.sum_congr rfl fun j _ => ?_
  have hk := contrEquiv1_symm_val dot_S512x2048_S2048x64_S512x64_1_0_0_1_n_n 2048 rfl rfl j
  have el : dot_S512x2048_S2048x64_S512x64_1_0_0_1_n_n.lhsIdx (ix2 r d)
      ((contrEquiv1 dot_S512x2048_S2048x64_S512x64_1_0_0_1_n_n 2048 rfl rfl).symm j) = ix2 r j := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 r d)
      ((contrEquiv1 dot_S512x2048_S2048x64_S512x64_1_0_0_1_n_n 2048 rfl rfl).symm j) = ix2 j d := funext fun a => Fin.ext (by
    match a with
    | ⟨0, _⟩ => exact (pv_rhs0 _ _).trans hk
    | ⟨1, _⟩ => exact pv_rhs1 _ _)
  rw [el, er]

/-! ## The two lane reductions -/

/-- The maximum over a row's lanes, started from -∞, is the row maximum. -/
theorem laneMax_apply (X : FVec Ideal S512x2048 .f32) (hφ : FKind.Formats .f32)
    (hacc : (0xFF800000#32 : BitVec (FTy.bits .f32)) = FKind.maximumf.neutral .f32 hφ) (r : Fin 512) :
    multiReduction .maximumf [1] S512 X 0xFF800000#32 reduces_S512x2048_S512 hφ hacc (ix1 r)
      = rowMax (fun j : Fin 2048 => X (ix2 r j)) := by
  refine (Ideal.multiReduction_maximumf_single X 0xFF800000#32 reduces_S512x2048_S512 hφ hacc (ix1 r)).trans ?_
  show (Finset.univ : Finset (Fin 2048)).fold max (Ideal.ofBits .f32 0xFF800000#32) (fun k => X (reduces_S512x2048_S512.lift (ix1 r) k))
    = (Finset.univ : Finset (Fin 2048)).fold max ⊥ (fun j : Fin 2048 => X (ix2 r j))
  rw [ofBits_negInf]
  refine congrArg (fun f => (Finset.univ : Finset (Fin 2048)).fold max ⊥ f) (funext fun k => congrArg X (funext fun a => Fin.ext ?_))
  match a with
  | ⟨0, _⟩ => rfl
  | ⟨1, _⟩ => rfl

/-- The sum over a row's lanes. -/
theorem laneSum_apply (X : FVec Ideal S512x2048 .f32) (hφ : FKind.Formats .f32)
    (hacc : (0x00000000#32 : BitVec (FTy.bits .f32)) = FKind.add.neutral .f32 hφ) (r : Fin 512) :
    multiReduction .add [1] S512 X 0x00000000#32 reduces_S512x2048_S512 hφ hacc (ix1 r)
      = ∑ j : Fin 2048, X (ix2 r j) := by
  refine (Ideal.multiReduction_add_single X 0x00000000#32 reduces_S512x2048_S512 hφ hacc (ix1 r)).trans ?_
  show ∑ k : Fin 2048, X (reduces_S512x2048_S512.lift (ix1 r) k) = _
  refine Finset.sum_congr rfl fun k _ => congrArg X (funext fun a => Fin.ext ?_)
  match a with
  | ⟨0, _⟩ => rfl
  | ⟨1, _⟩ => rfl

/-! ## The body's value, in three stages -/

/-- The scores tile [512, 2048]: the scaled products of query and key rows plus the row's bias. -/
def scoresTile (x0 : Vec Ideal S1x512x64 .f32) (x1 : Vec Ideal S1x2048x64 .f32) (x3 : Vec Ideal S1x512x1 .f32) : FVec Ideal S512x2048 .f32 :=
  addf (mulf (matmul dot_S512x64_S2048x64_S512x2048_1_1_0_0_n_n none
      (truncf .bf16 (shapeCast S512x64 x0 shapeCasts_S1x512x64_S512x64) bitsLt_bf16_f32)
      (truncf .bf16 (shapeCast S2048x64 x1 shapeCasts_S1x2048x64_S2048x64) bitsLt_bf16_f32)
      (constant (F := Ideal) S512x2048 .f32 0x00000000#32))
    (broadcast S512x2048 (Scalar.ofBits (F := Ideal) .f32 0x3D000000#32)))
    (broadcastTo S512x2048 (shapeCast S512x1 x3 shapeCasts_S1x512x1_S512x1) broadcasts_S512x1_S512x2048)

/-- The weights tile: the exponential of each score less its row's maximum. -/
def weightsTile (S : FVec Ideal S512x2048 .f32) : FVec Ideal S512x2048 .f32 :=
  exp (subf S (broadcastTo S512x2048 (shapeCast S512x1
    (multiReduction .maximumf [1] S512 S 0xFF800000#32 reduces_S512x2048_S512 (.inl rfl) rfl)
    shapeCasts_S512_S512x1) broadcasts_S512x1_S512x2048))

/-- The stored block: the weights times the value block, each row divided by its total weight. -/
def outTile (P : FVec Ideal S512x2048 .f32) (x2 : Vec Ideal S1x2048x64 .f32) : FVec Ideal S1x512x64 .f32 :=
  shapeCast S1x512x64 (divf
    (matmul dot_S512x2048_S2048x64_S512x64_1_0_0_1_n_n none (truncf .bf16 P bitsLt_bf16_f32)
      (truncf .bf16 (shapeCast S2048x64 x2 shapeCasts_S1x2048x64_S2048x64) bitsLt_bf16_f32)
      (constant (F := Ideal) S512x64 .f32 0x00000000#32))
    (broadcastTo S512x64 (shapeCast S512x1
      (multiReduction .add [1] S512 P 0x00000000#32 reduces_S512x2048_S512 (.inl rfl) rfl)
      shapeCasts_S512_S512x1) broadcasts_S512x1_S512x64)) shapeCasts_S512x64_S1x512x64

/-- The payload is the three stages composed. -/
theorem pay_eq (x0 : Vec Ideal S1x512x64 .f32) (x1 x2 : Vec Ideal S1x2048x64 .f32) (x3 : Vec Ideal S1x512x1 .f32) :
    k0_pay1 x0 x1 x2 x3 = outTile (weightsTile (scoresTile x0 x1 x3)) x2 := rfl

/-- A score: row r of the query block against row j of the key block, scaled, plus the bias of row r. -/
theorem scoresTile_apply (x0 : Vec Ideal S1x512x64 .f32) (x1 : Vec Ideal S1x2048x64 .f32) (x3 : Vec Ideal S1x512x1 .f32)
    (r : Fin 512) (j : Fin 2048) :
    scoresTile x0 x1 x3 (ix2 r j)
      = (∑ e : Fin 64, x0 (ix3 (0 : Fin 1) r e) * x1 (ix3 (0 : Fin 1) j e)) * Ideal.ofBits .f32 0x3D000000#32
        + x3 (ix3 (0 : Fin 1) r (0 : Fin 1)) := by
  unfold scoresTile
  rw [addf_apply, mulf_apply, scores_apply, broadcast_apply, broadcastTo_a1_ab_apply, shapeCast_1ab_ab_apply]
  refine congrArg₂ (· + ·) (congrArg₂ (· * ·) (Finset.sum_congr rfl fun e _ => ?_) rfl) rfl
  rw [truncf_apply, truncf_apply, shapeCast_1ab_ab_apply, shapeCast_1ab_ab_apply]

/-- A weight. -/
theorem weightsTile_apply (S : FVec Ideal S512x2048 .f32) (r : Fin 512) (j : Fin 2048) :
    weightsTile S (ix2 r j) = wt (fun j' : Fin 2048 => S (ix2 r j')) j := by
  unfold weightsTile wt
  show Ideal.exp (subf S _ (ix2 r j)) = _
  rw [subf_apply, broadcastTo_a1_ab_apply, shapeCast_a_a1_apply]
  exact congrArg (fun mx => Ideal.exp (S (ix2 r j) - mx)) (laneMax_apply S _ _ r)

/-- An entry of the stored block. -/
theorem outTile_apply (P : FVec Ideal S512x2048 .f32) (x2 : Vec Ideal S1x2048x64 .f32) (u : Fin 1) (r : Fin 512) (d : Fin 64) :
    outTile P x2 (ix3 u r d)
      = Ideal.div (∑ j : Fin 2048, P (ix2 r j) * x2 (ix3 (0 : Fin 1) j d)) (∑ j : Fin 2048, P (ix2 r j)) := by
  unfold outTile
  rw [shapeCast_ab_1ab_apply, divf_apply, weighted_apply, broadcastTo_a1_ab_apply, shapeCast_a_a1_apply]
  refine congrArg₂ Ideal.div (Finset.sum_congr rfl fun j _ => ?_) (laneSum_apply P _ _ r)
  rw [truncf_apply, truncf_apply, shapeCast_1ab_ab_apply]

/-- THE PAYLOAD at entry (r, d): the weighted average, over the keys, of column d of the value block. -/
theorem pay_apply (x0 : Vec Ideal S1x512x64 .f32) (x1 x2 : Vec Ideal S1x2048x64 .f32) (x3 : Vec Ideal S1x512x1 .f32)
    (u : Fin 1) (r : Fin 512) (d : Fin 64) :
    k0_pay1 x0 x1 x2 x3 (ix3 u r d)
      = avgK (fun j : Fin 2048 => (∑ e : Fin 64, x0 (ix3 (0 : Fin 1) r e) * x1 (ix3 (0 : Fin 1) j e)) * Ideal.ofBits .f32 0x3D000000#32
              + x3 (ix3 (0 : Fin 1) r (0 : Fin 1)))
          (fun j : Fin 2048 => x2 (ix3 (0 : Fin 1) j d)) := by
  rw [pay_eq, outTile_apply]
  unfold avgK
  simp only [weightsTile_apply, scoresTile_apply]

end Cert.KernelIdeal.Body

end
-- ==== Proof.KernelValue.lean ====
/-
  The kernel's result array at the exact instance.

  The grid has 64 * 4 points; point (bh, qi) reads rows 512*qi .. 512*qi+511 of the regrouped query array at
  batch-head bh, the whole key and value slabs of bh, the bias rows 512*qi .. of batch bh / 16, and writes back rows
  512*qi .. of slab bh of the result.  What it writes is a block of ONE function of the arrays the region finds
  (the attention output over the regrouped arrays), the blocks tile the result array, so after the run the
  array is that function; the host then regroups it to [4, 16, 2048, 64].  The arrays the region finds are the
  regrouped arguments and the bias array the host lines before the region compute from the mask.
-/
import proofs.«118966_j52072183497345_2_alg».proof.Proof.Gen.KernelIdeal.Frame
import proofs.«118966_j52072183497345_2_alg».proof.Proof.Body
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.KernelIdeal.Body Idealize.ShloMosaic Idealize.ShloMosaic.TcCoe
open Idealize.ShloMosaic.ValueIdx Idealize.SL.Sem Cert.Attn
open Idealize.ShloMosaic.Pipeline (Dat)
open Idealize.ShloMosaic.StableHlo

variable (m : (ℓ : Loc nD τ sig) → Buf (Elt Ideal) ℓ) (ρ : Dev nD → PrngReg)

theorem hz : (![0, 0, 0] : Fin 3 → Nat) = fun _ => 0 := funext fun a => by fin_cases a <;> rfl

/-! ## The arrays the region finds -/

/-- The query array as the region finds it: the argument regrouped to [64, 2048, 64]. -/
theorem V_v0 (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl
/-- The key array likewise. -/
theorem V_v1 (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl
/-- The value array likewise. -/
theorem V_v2 (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl
/-- The bias array [4, 2048, 1] as the host lines compute it from the mask. -/
theorem V_v8 (c : Dev nD) : (V m c main_v8 : S4x2048x1.Idx → EReal)
    = broadcastInDim S4x2048x1 ![0, 1] bcast_S4x2048_S4x2048x1_0_1
        (mulf (broadcastInDim S4x2048 ![] bcast_S_S4x2048 (constant (F := Ideal) S_ .f32 0xCE6E6B28#32))
          (subf (broadcastInDim S4x2048 ![] bcast_S_S4x2048 (constant (F := Ideal) S_ .f32 0x3F800000#32))
            (sitofp .f32 (m ((c : Thread nD τ).loc main_arg3))))) := by
  show StableHlo.after hostOps0 (fun b => m (c, b)) (Proc.devRef .tc main_v8) = _
  after_results

/-- The bias array at (b, s, 0) is the bias of query row s of batch b. -/
theorem V_v8_apply (c : Dev nD) (b : Fin 4) (s : Fin 2048) :
    (V m c main_v8 : S4x2048x1.Idx → EReal) (ix3 b s (0 : Fin 1)) = bias (m ((c : Thread nD τ).loc main_arg3)) b s := by
  rw [V_v8]
  refine (broadcastInDim_apply _ bcast_S4x2048_S4x2048x1_0_1 _ (ix3 b s (0 : Fin 1)) (ix2 b s) (fun a => ?_)).trans ?_
  · match a with
    | ⟨0, _⟩ => show b.val = if (4 : Nat) = 1 then 0 else b.val; rw [if_neg (by decide)]
    | ⟨1, _⟩ => show s.val = if (2048 : Nat) = 1 then 0 else s.val; rw [if_neg (by decide)]
  · rw [mulf_apply, subf_apply,
      broadcastInDim_apply _ bcast_S_S4x2048 (constant (F := Ideal) S_ .f32 0xCE6E6B28#32) (ix2 b s) ix0 (fun a => a.elim0),
      broadcastInDim_apply _ bcast_S_S4x2048 (constant (F := Ideal) S_ .f32 0x3F800000#32) (ix2 b s) ix0 (fun a => a.elim0)]
    rfl

/-! ## The index maps, decided over the grid -/

/-- Against the output window: the query window moves with it; the key and value windows follow its slab and
    stay at row block 0; the bias window is at batch (slab / 16) and follows its row block; the output's slab is
    below 64, its row block below 4, its lane block 0. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) / 16 ∧ win0_3.index t (1 : Fin 3) = win0_4.index t (1 : Fin 3)
    ∧ win0_3.index t (2 : Fin 3) = 0
    ∧ win0_4.index t (2 : Fin 3) = 0 ∧ win0_4.index t (0 : Fin 3) < 64 ∧ win0_4.index t (1 : Fin 3) < 4 :=
  (by decide +kernel : ∀ t : Fin grid0.N, _)

/-- Every (slab, row block) is some point's. -/
theorem idx_onto : ∀ (q0 : Fin 64) (q1 : Fin 4), ∃ t : Fin cfg0.N, win0_4.index t = ![q0.val, q1.val, 0] :=
  (by decide +kernel : ∀ (q0 : Fin 64) (q1 : Fin 4), ∃ t : Fin grid0.N, win0_4.index t = ![q0.val, q1.val, 0])

/-! ## The input blocks, read off the arrays -/

theorem iblk0_read (c : Dev nD) (t : Fin cfg0.N) (r : Fin 512) (e : Fin 64) (k : S64x2048x64.Idx)
    (hk0 : (k 0).val = win0_0.index t (0 : Fin 3)) (hk1 : (k 1).val = win0_0.index t (1 : Fin 3) * 512 + r.val)
    (hk2 : (k 2).val = win0_0.index t (2 : Fin 3) * 64 + e.val) :
    (iblk m c 0 t : Vec Ideal S1x512x64 .f32) (ix3 (0 : Fin 1) r e) = (V m c main_v0 : S64x2048x64.Idx → EReal) k := by
  show (V m c main_v0 : S64x2048x64.Idx → EReal) (((cfg0.win 0).blk t).view.emb (ix3 (0 : Fin 1) r e)) = _
  refine congrArg _ (funext fun a => Fin.ext ?_)
  match a with
  | ⟨0, _⟩ => show win0_0.index t (0 : Fin 3) * 1 + 1 * 0 = (k 0).val; omega
  | ⟨1, _⟩ => show win0_0.index t (1 : Fin 3) * 512 + 1 * r.val = (k 1).val; omega
  | ⟨2, _⟩ => show win0_0.index t (2 : Fin 3) * 64 + 1 * e.val = (k 2).val; omega

theorem iblk1_read (c : Dev nD) (t : Fin cfg0.N) (j : Fin 2048) (e : Fin 64) (k : S64x2048x64.Idx)
    (hk0 : (k 0).val = win0_1.index t (0 : Fin 3)) (hk1 : (k 1).val = win0_1.index t (1 : Fin 3) * 2048 + j.val)
    (hk2 : (k 2).val = win0_1.index t (2 : Fin 3) * 64 + e.val) :
    (iblk m c 1 t : Vec Ideal S1x2048x64 .f32) (ix3 (0 : Fin 1) j e) = (V m c main_v1 : S64x2048x64.Idx → EReal) k := by
  show (V m c main_v1 : S64x2048x64.Idx → EReal) (((cfg0.win 1).blk t).view.emb (ix3 (0 : Fin 1) j e)) = _
  refine congrArg _ (funext fun a => Fin.ext ?_)
  match a with
  | ⟨0, _⟩ => show win0_1.index t (0 : Fin 3) * 1 + 1 * 0 = (k 0).val; omega
  | ⟨1, _⟩ => show win0_1.index t (1 : Fin 3) * 2048 + 1 * j.val = (k 1).val; omega
  | ⟨2, _⟩ => show win0_1.index t (2 : Fin 3) * 64 + 1 * e.val = (k 2).val; omega

theorem iblk2_read (c : Dev nD) (t : Fin cfg0.N) (j : Fin 2048) (e : Fin 64) (k : S64x2048x64.Idx)
    (hk0 : (k 0).val = win0_2.index t (0 : Fin 3)) (hk1 : (k 1).val = win0_2.index t (1 : Fin 3) * 2048 + j.val)
    (hk2 : (k 2).val = win0_2.index t (2 : Fin 3) * 64 + e.val) :
    (iblk m c 2 t : Vec Ideal S1x2048x64 .f32) (ix3 (0 : Fin 1) j e) = (V m c main_v2 : S64x2048x64.Idx → EReal) k := by
  show (V m c main_v2 : S64x2048x64.Idx → EReal) (((cfg0.win 2).blk t).view.emb (ix3 (0 : Fin 1) j e)) = _
  refine congrArg _ (funext fun a => Fin.ext ?_)
  match a with
  | ⟨0, _⟩ => show win0_2.index t (0 : Fin 3) * 1 + 1 * 0 = (k 0).val; omega
  | ⟨1, _⟩ => show win0_2.index t (1 : Fin 3) * 2048 + 1 * j.val = (k 1).val; omega
  | ⟨2, _⟩ => show win0_2.index t (2 : Fin 3) * 64 + 1 * e.val = (k 2).val; omega

theorem iblk3_read (c : Dev nD) (t : Fin cfg0.N) (r : Fin 512) (k : S4x2048x1.Idx)
    (hk0 : (k 0).val = win0_3.index t (0 : Fin 3)) (hk1 : (k 1).val = win0_3.index t (1 : Fin 3) * 512 + r.val)
    (hk2 : (k 2).val = win0_3.index t (2 : Fin 3) * 1 + 0) :
    (iblk m c 3 t : Vec Ideal S1x512x1 .f32) (ix3 (0 : Fin 1) r (0 : Fin 1)) = (V m c main_v8 : S4x2048x1.Idx → EReal) k := by
  show (V m c main_v8 : S4x2048x1.Idx → EReal) (((cfg0.win 3).blk t).view.emb (ix3 (0 : Fin 1) r (0 : Fin 1))) = _
  refine congrArg _ (funext fun a => Fin.ext ?_)
  match a with
  | ⟨0, _⟩ => show win0_3.index t (0 : Fin 3) * 1 + 1 * 0 = (k 0).val; omega
  | ⟨1, _⟩ => show win0_3.index t (1 : Fin 3) * 512 + 1 * r.val = (k 1).val; omega
  | ⟨2, _⟩ => show win0_3.index t (2 : Fin 3) * 1 + 1 * 0 = (k 2).val; omega

/-! ## What a point writes back -/

/-- The function every written block is a block of. -/
abbrev G (c : Dev nD) : S64x2048x64.Idx → EReal :=
  attn3 (V m c main_v0) (V m c main_v1) (V m c main_v2) (V m c main_v8)

/-- Over vectors that are the blocks of arrays Q, K, W, B at slab bh, row block qi: the payload's entry (r, d) is the
    attention entry (bh, 512 * qi + r, d) of those arrays. -/
theorem pay_block (Q K W : S64x2048x64.Idx → EReal) (B : S4x2048x1.Idx → EReal)
    (x0 : Vec Ideal S1x512x64 .f32) (x1 x2 : Vec Ideal S1x2048x64 .f32) (x3 : Vec Ideal S1x512x1 .f32)
    (bh : Fin 64) (u : Fin 1) (r : Fin 512) (d : Fin 64) (row : Fin 2048) (dd : Fin 64) (hdd : dd.val = d.val)
    (h0 : ∀ e, x0 (ix3 (0 : Fin 1) r e) = Q (ix3 bh row e))
    (h1 : ∀ j e, x1 (ix3 (0 : Fin 1) j e) = K (ix3 bh j e))
    (h2 : ∀ j, x2 (ix3 (0 : Fin 1) j d) = W (ix3 bh j d))
    (h3 : x3 (ix3 (0 : Fin 1) r (0 : Fin 1)) = B (ix3 (⟨bh.val / 16, by have := bh.isLt; omega⟩ : Fin 4) row (0 : Fin 1))) :
    k0_pay1 x0 x1 x2 x3 (ix3 u r d) = attn3At Q K W B bh row dd := by
  obtain rfl : dd = d := Fin.ext hdd
  rw [pay_apply]
  unfold attn3At
  simp only [h0, h1, h2, h3]

/-- WHAT POINT t WRITES BACK is block t of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz, View.ld_unit_zero (S := S1x512x1) hz]
  obtain ⟨e00, e01, e02, e10, e11, e12, e20, e21, e22, e30, e31, e32, e42, b0, b1⟩ := idx_facts t
  funext y
  have hy0 : (y 0).val < 1 := (y 0).isLt
  have hy1 : (y 1).val < 512 := (y 1).isLt
  have hy2 : (y 2).val < 64 := (y 2).isLt
  show k0_pay1 (iblk m c 0 t) (iblk m c 1 t) (iblk m c 2 t) (iblk m c 3 t) (ix3 (y 0) (y 1) (y 2))
    = attn3At (V m c main_v0) (V m c main_v1) (V m c main_v2) (V m c main_v8)
        ⟨win0_4.index t (0 : Fin 3) * 1 + 1 * (y 0).val, by omega⟩
        ⟨win0_4.index t (1 : Fin 3) * 512 + 1 * (y 1).val, by omega⟩
        ⟨win0_4.index t (2 : Fin 3) * 64 + 1 * (y 2).val, by omega⟩
  refine pay_block (V m c main_v0) (V m c main_v1) (V m c main_v2) (V m c main_v8)
    (iblk m c 0 t) (iblk m c 1 t) (iblk m c 2 t) (iblk m c 3 t) _ (y 0) (y 1) (y 2) _ _ ?_ (fun e => ?_) (fun j e => ?_) (fun j => ?_) ?_
  · show win0_4.index t (2 : Fin 3) * 64 + 1 * (y 2).val = (y 2).val
    omega
  · refine iblk0_read m c t (y 1) e _ ?_ ?_ ?_
    · show win0_4.index t (0 : Fin 3) * 1 + 1 * (y 0).val = win0_0.index t (0 : Fin 3); omega
    · show win0_4.index t (1 : Fin 3) * 512 + 1 * (y 1).val = win0_0.index t (1 : Fin 3) * 512 + (y 1).val; omega
    · show e.val = win0_0.index t (2 : Fin 3) * 64 + e.val; omega
  · refine iblk1_read m c t j e _ ?_ ?_ ?_
    · show win0_4.index t (0 : Fin 3) * 1 + 1 * (y 0).val = win0_1.index t (0 : Fin 3); omega
    · show j.val = win0_1.index t (1 : Fin 3) * 2048 + j.val; omega
    · show e.val = win0_1.index t (2 : Fin 3) * 64 + e.val; omega
  · refine iblk2_read m c t j (y 2) _ ?_ ?_ ?_
    · show win0_4.index t (0 : Fin 3) * 1 + 1 * (y 0).val = win0_2.index t (0 : Fin 3); omega
    · show j.val = win0_2.index t (1 : Fin 3) * 2048 + j.val; omega
    · show (y 2).val = win0_2.index t (2 : Fin 3) * 64 + (y 2).val; omega
  · refine iblk3_read m c t (y 1) _ ?_ ?_ ?_
    · show (win0_4.index t (0 : Fin 3) * 1 + 1 * (y 0).val) / 16 = win0_3.index t (0 : Fin 3); omega
    · show win0_4.index t (1 : Fin 3) * 512 + 1 * (y 1).val = win0_3.index t (1 : Fin 3) * 512 + (y 1).val; omega
    · show 0 = win0_3.index t (2 : Fin 3) * 1 + 0; omega

/-! ## The array after the run -/

/-- An index of the result array is in point t's block iff each coordinate is in the block's range on its axis. -/
theorem mem_blk (t : Fin cfg0.N) (i : S64x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v9).slice (win0_4.rect t)).set ↔ _
  rw [View.set_slice_whole, Rect.mem_set_unit]
  exact Iff.rfl

/-- The blocks tile the result array: entry (bh, s, d) is in the block of the point at slab bh, row block s / 512. -/
theorem cover (i : S64x2048x64.Idx) : ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE RESULT ARRAY of the region after the run. -/
theorem final (c : Dev nD) : (dats m 0 c).arrAt 4 cfg0.N = G m c :=
  (dats m 0 c).arrAt_eq_of_cover 4 (G m c) (fun t _ => flushed_eq m c t) cover

/-! ## The host line after the region, and the run -/

/-- @main's result: the region's result array regrouped to [4, 16, 2048, 64]. -/
theorem tail_eq (c : Dev nD) :
    (Pipeline.afterTail₀ cfgs (dats m) 0 (V0 m) [hostOps1] c main_v10 : S4x16x2048x64.Idx → EReal)
      = shapeCast S4x16x2048x64 (G m c) shapeCasts_S64x2048x64_S4x16x2048x64 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = G m c := (Pipeline.withArrays_arr spec0 launch0.win.arr_inj c _ _ 4).trans (final m c)
  rw [e]
  rfl

/-- @main's result is the attention output array of the arguments. -/
theorem result (c : Dev nD) :
    (Pipeline.afterTail₀ cfgs (dats m) 0 (V0 m) [hostOps1] c main_v10 : S4x16x2048x64.Idx → EReal)
      = attn (m ((c : Thread nD τ).loc main_arg0)) (m ((c : Thread nD τ).loc main_arg1)) (m ((c : Thread nD τ).loc main_arg2))
          (m ((c : Thread nD τ).loc main_arg3)) := by
  rw [tail_eq]
  unfold G
  rw [V_v0, V_v1, V_v2]
  exact attn3_regroup _ _ _ _ _ (V_v8_apply m c) _ _

/-- Every weakly fair execution of the kernel's program terminates with @main's result at the attention output
    array of the arguments, the arguments unchanged. -/
theorem run : θ_run defs (onTc (τ := τ) (main (F := Ideal))) ⟨m, fun _ => 0, ρ⟩ fun r => ∀ c : Dev nD,
      r.2.mem ((c.tc : Thread nD τ).loc main_v10)
        = attn (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference computes the attention output array.

  Read one operation at a time, the reference's result at (b, h, s, d) is the sum over the keys j of
  (weight j / total weight) * v(b,h,j,d),  the weight of key j being  exp (score j - row maximum)  and the score
  (∑ e, q(b,h,s,e) * k(b,h,j,e)) / √1024 + bias(b,s).  Dividing by √1024 = 32 is multiplying by 1/32, the
  maximum with -∞ of a fold of max from -∞ is that fold, and — the inputs being real numbers — the sum of
  normalised weights times values is the weighted sum divided by the total weight.
-/
import proofs.«118966_j52072183497345_2_alg».proof.Proof.Gen.ReferenceIdeal.Read
import proofs.«118966_j52072183497345_2_alg».proof.Proof.Entry

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S4x16x2048x64, .f32⟩ : BufTy).Contents (Elt Ideal)) (x3 : (⟨S4x2048, .i32⟩ : BufTy).Contents (Elt Ideal))

/-- The biased, scaled score of key j for query row (b, h, s). -/
theorem v11_apply (b : Fin 4) (h : Fin 16) (s j : Fin 2048) :
    val_main_v11 (F := Ideal) x0 x1 x3 (ix4 b h s j) = score x0 x1 x3 b h s j := by
  have el : ∀ k, lidx_main_v0 (ix4 b h s j) k = ix4 b h s k := fun k => funext fun a => by
    match a with
    | ⟨0, _⟩ => rfl
    | ⟨1, _⟩ => rfl
    | ⟨2, _⟩ => rfl
    | ⟨3, _⟩ => rfl
  have er : ∀ k, ridx_main_v0 (ix4 b h s j) k = ix4 b h j k := fun k => funext fun a => by
    match a with
    | ⟨0, _⟩ => rfl
    | ⟨1, _⟩ => rfl
    | ⟨2, _⟩ => rfl
    | ⟨3, _⟩ => rfl
  have em : idx_main_v5 (idx_main_v10 (ix4 b h s j)) = ix2 b s := funext fun a => by
    match a with
    | ⟨0, _⟩ => rfl
    | ⟨1, _⟩ => rfl
  rw [val_main_v11_apply, val_main_v3_apply, val_main_v0_apply, val_main_v2_apply, val_main_v1_apply, val_main_cst_apply,
    val_main_v10_apply, val_main_v9_apply, val_main_v8_apply, val_main_cst_1_apply, val_main_v7_apply, val_main_v6_apply,
    val_main_cst_0_apply, val_main_v5_apply, val_main_v4_apply, em]
  simp only [el, er]
  show Ideal.div _ (Ideal.sqrt (Ideal.ofBits .f32 0x44800000#32)) + _ = _
  rw [div_sqrt1024]
  rfl

/-- The row maximum of the scores of query row (b, h, s). -/
theorem v14_apply (b : Fin 4) (h : Fin 16) (s : Fin 2048) :
    val_main_v14 (F := Ideal) x0 x1 x3 (ix3 b h s) = rowMax (fun j : Fin 2048 => score x0 x1 x3 b h s j) := by
  rw [val_main_v14_apply, val_main_v13_apply, val_main_cst_3_apply]
  unfold val_main_v12
  rw [Host.reduce_eq_fold_single (FloatOps.maximumf (F := Ideal) (φ := .f32)) _ _ reducesTo_S4x16x2048x2048_S4x16x2048_d3
    (by decide : S4x16x2048x2048.Reduces [3] S4x16x2048) h_S_ (ix3 b h s)]
  show max (Ideal.ofBits .f32 0xFF800000#32)
    ((Finset.univ : Finset (Fin 2048)).fold max (Ideal.ofBits .f32 0xFF800000#32) _) = (Finset.univ : Finset (Fin 2048)).fold max ⊥ _
  rw [ofBits_negInf, max_eq_right bot_le]
  refine congrArg (fun f => (Finset.univ : Finset (Fin 2048)).fold max ⊥ f) (funext fun k => ?_)
  refine Eq.trans (congrArg (val_main_v11 (F := Ideal) x0 x1 x3) (funext fun a => Fin.ext ?_)) (v11_apply x0 x1 x3 b h s k)
  match a with
  | ⟨0, _⟩ => rfl
  | ⟨1, _⟩ => rfl
  | ⟨2, _⟩ => rfl
  | ⟨3, _⟩ => rfl

/-- The weight of key j. -/
theorem v18_apply (b : Fin 4) (h : Fin 16) (s j : Fin 2048) :
    val_main_v18 (F := Ideal) x0 x1 x3 (ix4 b h s j) = wt (fun j' : Fin 2048 => score x0 x1 x3 b h s j') j := by
  have e : idx_main_v15 (idx_main_v16 (ix4 b h s j)) = ix3 b h s := funext fun a => by
    match a with
    | ⟨0, _⟩ => rfl
    | ⟨1, _⟩ => rfl
    | ⟨2, _⟩ => rfl
  rw [val_main_v18_apply, val_main_v17_apply, val_main_v16_apply, val_main_v15_apply, e, v14_apply, v11_apply]
  rfl

/-- The total weight of query row (b, h, s), repeated along the keys. -/
theorem v21_apply (b : Fin 4) (h : Fin 16) (s j : Fin 2048) :
    val_main_v21 (F := Ideal) x0 x1 x3 (ix4 b h s j) = ∑ j' : Fin 2048, wt (fun j'' : Fin 2048 => score x0 x1 x3 b h s j'') j' := by
  have e : idx_main_v20 (idx_main_v21 (ix4 b h s j)) = ix3 b h s := funext fun a => by
    match a with
    | ⟨0, _⟩ => rfl
    | ⟨1, _⟩ => rfl
    | ⟨2, _⟩ => rfl
  have e' : ∀ k, idx_main_v19 (ix3 b h s) k = ix4 b h s k := fun k => funext fun a => by
    match a with
    | ⟨0, _⟩ => rfl
    | ⟨1, _⟩ => rfl
    | ⟨2, _⟩ => rfl
    | ⟨3, _⟩ => rfl
  rw [val_main_v21_apply, val_main_v20_apply, e, val_main_v19_apply, val_main_cst_4_apply]
  simp only [e', v18_apply]
  show Ideal.ofBits .f32 0x00000000#32 + _ = _
  rw [Ideal.ofBits_zero_f32, zero_add]

/-- The reference's result entry: the sum of the normalised weights times the values. -/
theorem v23_apply (b : Fin 4) (h : Fin 16) (s : Fin 2048) (d : Fin 64) :
    val_main_v23 (F := Ideal) x0 x1 x2 x3 (ix4 b h s d)
      = avgR (fun j : Fin 2048 => score x0 x1 x3 b h s j) (fun j : Fin 2048 => x2 (ix4 b h j d)) := by
  have el : ∀ k, lidx_main_v23 (ix4 b h s d) k = ix4 b h s k := fun k => funext fun a => by
    match a with
    | ⟨0, _⟩ => rfl
    | ⟨1, _⟩ => rfl
    | ⟨2, _⟩ => rfl
    | ⟨3, _⟩ => rfl
  have er : ∀ k, ridx_main_v23 (ix4 b h s d) k = ix4 b h k d := fun k => funext fun a => by
    match a with
    | ⟨0, _⟩ => rfl
    | ⟨1, _⟩ => rfl
    | ⟨2, _⟩ => rfl
    | ⟨3, _⟩ => rfl
  rw [val_main_v23_apply]
  unfold avgR
  refine Finset.sum_congr rfl fun k _ => ?_
  rw [el, er, val_main_v22_apply, v18_apply, v21_apply]
  rfl

/-- On real inputs the reference's result is the attention output array. -/
theorem ref_eq_attn (h0 : ∀ i, IsReal (x0 i)) (h1 : ∀ i, IsReal (x1 i)) (h2 : ∀ i, IsReal (x2 i)) :
    val_main_v23 (F := Ideal) x0 x1 x2 x3 = attn x0 x1 x2 x3 := by
  funext i
  obtain ⟨b, h, s, d, rfl⟩ : ∃ (b : Fin 4) (h : Fin 16) (s : Fin 2048) (d : Fin 64), i = ix4 b h s d :=
    ⟨i 0, i 1, i 2, i 3, eq_ix4 i⟩
  rw [v23_apply]
  show _ = attnAt x0 x1 x2 x3 b h s d
  unfold attnAt
  refine avgR_eq_avgK (by norm_num) _ _ (fun j => ?_) (fun j => h2 _)
  exact score_isReal x0 x1 x3 h0 h1 b h s j

end Cert.ReferenceIdeal.RefValue

end
-- ==== Proof.Finite.lean ====
/-
  The precondition says every entry of the three float arguments is a real number.

  The printed predicate is the conjunction of three  all(|x| < +∞),  one per float argument.  An extended real
  whose absolute value  max x (-x)  is below +∞ is neither +∞ nor -∞.
-/
import proofs.«118966_j52072183497345_2_alg».proof.Proof.Gen.Pre_finite_inputs
import proofs.«118966_j52072183497345_2_alg».proof.Proof.LibSoftmaxAverage
import Idealize.ShloMosaic.Lib.ReduceAll
import Idealize.ShloMosaic.PureOps.Ideal.Laws

noncomputable section

namespace Cert.Pre_finite_inputs.Hand

open Cert.Pre_finite_inputs Cert.Pre_finite_inputs.Gen Idealize.ShloMosaic Cert.Attn

/-- The rank-0 shape has one index. -/
instance : Subsingleton S_.Idx := ⟨fun a b => funext fun d => d.elim0⟩

/-- The word `0x7F800000` is +∞. -/
theorem ofBits_posInf : Ideal.ofBits .f32 0x7F800000#32 = ⊤ := by
  simp [Ideal.ofBits, Ideal.ieee]

/-- An extended real whose absolute value compares below +∞ is a real number. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  have h' : Ideal.cmp .olt (max x (-x)) (Ideal.ofBits .f32 0x7F800000#32) = 1#1 := h
  rw [ofBits_posInf] at h'
  have hlt : max x (-x) < ⊤ := by
    by_contra hn
    simp [Ideal.cmp, hn] at h'
  induction x using EReal.rec with
  | bot => simp at hlt
  | coe r => exact ⟨r, rfl⟩
  | top => simp at hlt

/-- Under the precondition every entry of the query, key and value arguments is a real number. -/
theorem real_of_pre (a0 a1 a2 : FVec Ideal S4x16x2048x64 .f32) (a3 : IVec S4x2048 32)
    (h : fn (F := Ideal) a0 a1 a2 a3 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h0', h1⟩ := IntOp.andi_eq_one.1 h01
  exact ⟨fun i => isReal_of_abs_lt _ (Host.reduce_andi_all _ _ _ _ _ h0' i),
    fun i => isReal_of_abs_lt _ (Host.reduce_andi_all _ _ _ _ _ h1 i),
    fun i => isReal_of_abs_lt _ (Host.reduce_andi_all _ _ _ _ _ h2 i)⟩

end Cert.Pre_finite_inputs.Hand

end
-- ==== Proof.lean ====
/-
  Scaled dot-product attention with an additive mask bias: a pipelined kernel against its array-level reference.

  Both programs compute, for batch b, head h, query position s and feature d, the softmax-weighted average over the
  2048 keys j of  v(b,h,j,d),  the score of key j being  (∑ e, q(b,h,s,e) * k(b,h,j,e)) / 32 - 1e9 * (1 - mask(b,s)).
  The kernel works on the arrays regrouped to 64 batch-head slabs, one block of 512 query rows per grid point:
  it scales by the constant 1/32, takes the row maximum and the row total over a tile's lanes, and divides the
  weighted sum of the values by the total weight.  The reference divides by √1024, takes the maximum and the total by
  host reductions, normalises the weights first and then sums weight times value.  At the exact instance the two
  agree entry by entry: √1024 = 32; both maxima are the fold of max from -∞ over a row; and, the inputs being real
  numbers (the precondition), every weight is a positive real, so dividing by the total commutes with the sum.
  The idealization pass rewrote nothing, so the kernel's idealized program is its own text.
-/
import proofs.«118966_j52072183497345_2_alg».proof.Defs
import proofs.«118966_j52072183497345_2_alg».proof.Proof.Gen.Kernel
import proofs.«118966_j52072183497345_2_alg».proof.Proof.Gen.Kernel.Skeleton
import proofs.«118966_j52072183497345_2_alg».proof.Proof.Gen.Kernel.Launch
import proofs.«118966_j52072183497345_2_alg».proof.Proof.Gen.Kernel.Points
import proofs.«118966_j52072183497345_2_alg».proof.Proof.Gen.Kernel.Frame
import proofs.«118966_j52072183497345_2_alg».proof.Proof.Gen.KernelIdeal
import proofs.«118966_j52072183497345_2_alg».proof.Proof.Gen.KernelIdeal.Skeleton
import proofs.«118966_j52072183497345_2_alg».proof.Proof.Gen.KernelIdeal.Launch
import proofs.«118966_j52072183497345_2_alg».proof.Proof.Gen.KernelIdeal.Points
import proofs.«118966_j52072183497345_2_alg».proof.Proof.Gen.KernelIdeal.Frame
import proofs.«118966_j52072183497345_2_alg».proof.Proof.Gen.ReferenceIdeal
import proofs.«118966_j52072183497345_2_alg».proof.Proof.Gen.ReferenceIdeal.Run
import proofs.«118966_j52072183497345_2_alg».proof.Proof.Gen.ReferenceIdeal.Read
import proofs.«118966_j52072183497345_2_alg».proof.Proof.Gen.Pre_finite_inputs
import proofs.«118966_j52072183497345_2_alg».proof.Proof.KernelValue
import proofs.«118966_j52072183497345_2_alg».proof.Proof.RefValue
import proofs.«118966_j52072183497345_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealized program. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote nothing. -/
theorem preserves : Cert.preserves_Kernel_KernelIdeal := trivial

/-- From memories agreeing on the arguments, both programs end with the attention output array of the arguments:
    the kernel by its run read back, the reference by its operations read one at a time, the inputs real by the
    precondition. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨?_, (h c).2⟩)
    (Cert.ReferenceIdeal.Value.run (F := Ideal) m' ρ')
  obtain ⟨r0, r1, r2⟩ := Cert.Pre_finite_inputs.Hand.real_of_pre _ _ _ _ (hpre c)
  refine (h c).1.trans ?_
  refine (Cert.ReferenceIdeal.Read.val_main_v23_eq _ _ _ _).trans ?_
  rw [(hagree c).1, (hagree c).2.1, (hagree c).2.2.1, (hagree c).2.2.2]
  exact Cert.ReferenceIdeal.RefValue.ref_eq_attn _ _ _ _ r0 r1 r2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
